-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512x3 : Shape := ⟨4, ![64, 512, 512, 3]⟩
abbrev S_ : Shape := ⟨0, ![]⟩

class Facts : Prop where
  bcast_S_S64x512x512x3 : S_.BroadcastsInDim S64x512x512x3 (![] : Fin 0 → Fin S64x512x512x3.rank)
  reducesTo_S64x512x512x3_S_d0_1_2_3 : S64x512x512x3.ReducesTo [0, 1, 2, 3] S_
  h_S_ : 0 < S_.numel

variable [Facts]

def fn {F : FTy → Type} [FloatOps F] (main_arg0 : FVec F S64x512x512x3 .f32) : IVec S_ 1 :=
  let main_v0 : FVec F S64x512x512x3 .f32 := Host.absf main_arg0
  let main_cst : FVec F S_ .f32 := constant S_ .f32 0x7F800000#32
  let main_v1 : FVec F S64x512x512x3 .f32 := broadcastInDim S64x512x512x3 ![] bcast_S_S64x512x512x3 main_cst
  let main_v2 : IVec S64x512x512x3 1 := cmpf .olt main_v0 main_v1
  let main_c : IVec S_ 1 := constantI S_ 1 1#1
  let main_v3 : IVec S_ 1 := (fun x v => Host.reduce IntOp.andi x v reducesTo_S64x512x512x3_S_d0_1_2_3 h_S_) main_v2 main_c
  main_v3
-- ==== Kernel.lean ====
abbrev S64x512x512x3 : Shape := ⟨4, ![64, 512, 512, 3]⟩
abbrev S16777216x3 : Shape := ⟨2, ![16777216, 3]⟩
abbrev S2x3x16x16 : Shape := ⟨4, ![2, 3, 16, 16]⟩
abbrev S131072x3 : Shape := ⟨2, ![131072, 3]⟩
abbrev S1x3x16x16 : Shape := ⟨4, ![1, 3, 16, 16]⟩
abbrev S3x16x16 : Shape := ⟨3, ![3, 16, 16]⟩
abbrev S3x131072 : Shape := ⟨2, ![3, 131072]⟩
abbrev S1x16x1 : Shape := ⟨3, ![1, 16, 1]⟩
abbrev S3x1x131072 : Shape := ⟨3, ![3, 1, 131072]⟩
abbrev S3x16x131072 : Shape := ⟨3, ![3, 16, 131072]⟩
abbrev S_ : Shape := ⟨0, ![]⟩
abbrev S3x256 : Shape := ⟨2, ![3, 256]⟩
abbrev S3 : Shape := ⟨1, ![3]⟩
abbrev S3x1 : Shape := ⟨2, ![3, 1]⟩
abbrev S256x3 : Shape := ⟨2, ![256, 3]⟩

abbrev nBuf : Space → Nat
  | .hbm => 12
  | .vmem => 5
  | .smem => 0
  | _ => 0

abbrev bufTy : (tb : Table) → Fin (tcTables nBuf tb) → BufTy
  | .hbm, ⟨0, _⟩ => ⟨S64x512x512x3, .f32⟩
  | .hbm, ⟨1, _⟩ => ⟨S16777216x3, .f32⟩
  | .hbm, ⟨2, _⟩ => ⟨S2x3x16x16, .f32⟩
  | .hbm, ⟨3, _⟩ => ⟨S_, .f32⟩
  | .hbm, ⟨4, _⟩ => ⟨S3x16x16, .f32⟩
  | .hbm, ⟨5, _⟩ => ⟨S3x256, .f32⟩
  | .hbm, ⟨6, _⟩ => ⟨S_, .f32⟩
  | .hbm, ⟨7, _⟩ => ⟨S3, .f32⟩
  | .hbm, ⟨8, _⟩ => ⟨S3x1, .f32⟩
  | .hbm, ⟨9, _⟩ => ⟨S3x256, .f32⟩
  | .hbm, ⟨10, _⟩ => ⟨S3x256, .f32⟩
  | .hbm, ⟨11, _⟩ => ⟨S256x3, .f32⟩
  | .local _ .vmem, ⟨0, _⟩ => ⟨S131072x3, .f32⟩
  | .local _ .vmem, ⟨1, _⟩ => ⟨S131072x3, .f32⟩
  | .local _ .vmem, ⟨2, _⟩ => ⟨S1x3x16x16, .f32⟩
  | .local _ .vmem, ⟨3, _⟩ => ⟨S1x3x16x16, .f32⟩
  | .local _ .vmem, ⟨4, _⟩ => ⟨S3x16x16, .f32⟩
  | _, _ => ⟨S64x512x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v64 : BitVec 1 := Scalar.cmpi .eq arg1 c63_i32
  let v65 : BitVec 32 := Scalar.extui v64
  let c0_i32_16 : BitVec 32 := 0#32
  let v66 : BitVec 1 := Scalar.cmpi .ne v65 c0_i32_16
  v66

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S131072x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x16x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S64x512x512x3_S16777216x3 : S64x512x512x3.ShapeCasts S16777216x3
  inb_S3x16x16_S3x16x16_0_0_0 : ∀ a, (![0, 0, 0] : Fin 3 → Nat) a + S3x16x16.size a ≤ S3x16x16.size a
  h_S3x16x16 : 0 < S3x16x16.numel
  shapeCasts_S3x16x16_S3x16x16 : S3x16x16.ShapeCasts S3x16x16
  inb_S131072x3_S131072x3_0_0 : ∀ a, (![0, 0] : Fin 2 → Nat) a + S131072x3.size a ≤ S131072x3.size a
  h_S131072x3 : 0 < S131072x3.numel
  shapeCasts_S131072x3_S131072x3 : S131072x3.ShapeCasts S131072x3
  transposes_S131072x3_p1_0_S3x131072 : S131072x3.Transposes [1, 0] S3x131072
  natLt_1_32 : 1 < 32
  iota_S1x16x1_d1_w32 : S1x16x1.Iotas .tc 32 [1]
  shapeCasts_S3x131072_S3x1x131072 : S3x131072.ShapeCasts S3x1x131072
  broadcasts_S3x1x131072_S3x16x131072 : S3x1x131072.Broadcasts S3x16x131072
  broadcasts_S1x16x1_S3x16x131072 : S1x16x1.Broadcasts S3x16x131072
  bitsLt_bf16_f32 : FTy.bits .bf16 < FTy.bits .f32
  inb_S1x3x16x16_S1x3x16x16_0_0_0_0 : ∀ a, (![0, 0, 0, 0] : Fin 4 → Nat) a + S1x3x16x16.size a ≤ S1x3x16x16.size a
  h_S1x3x16x16 : 0 < S1x3x16x16.numel
  shapeCasts_S1x3x16x16_S3x16x16 : S1x3x16x16.ShapeCasts S3x16x16
  shapeCasts_S3x16x16_S1x3x16x16 : S3x16x16.ShapeCasts S1x3x16x16
  reducesTo_S2x3x16x16_S3x16x16_d0 : S2x3x16x16.ReducesTo [0] S3x16x16
  h_S_ : 0 < S_.numel
  shapeCasts_S3x16x16_S3x256 : S3x16x16.ShapeCasts S3x256
  reducesTo_S3x256_S3_d1 : S3x256.ReducesTo [1] S3
  bcast_S3_S3x1_0 : S3.BroadcastsInDim S3x1 (![0] : Fin 1 → Fin S3x1.rank)
  bcast_S3x1_S3x256_0_1 : S3x1.BroadcastsInDim S3x256 (![0, 1] : Fin 2 → Fin S3x256.rank)
  transposes_S3x256_S256x3_1_0 : S3x256.Transposes [1, 0] S256x3
  dot_S3x16x131072_S3x16x131072_S3x16x16_2_2_1_1_0_0_wf : DotDims.WF S3x16x131072 S3x16x131072 S3x16x16 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S131072x3.size a ≤ S16777216x3.size a
  hwx0_0 : ∀ i : grid0.Coords, EltTy.bits .f32 = 32 ∨ (Rect.block (s := S16777216x3) S131072x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x16x16.size a ≤ S2x3x16x16.size a
  hwx0_1 : ∀ i : grid0.Coords, EltTy.bits .f32 = 32 ∨ (Rect.block (s := S2x3x16x16) S1x3x16x16.size (cc0_transform_1 i) (hinb0_1 i)).WholeWords (EltTy.packing .f32)

variable [Facts₀]

def dot_S3x16x131072_S3x16x131072_S3x16x16_2_2_1_1_0_0 : DotDims S3x16x131072 S3x16x131072 S3x16x16 where
  lhsContracting := [2]
  rhsContracting := [2]
  lhsNonContracting := [1]
  rhsNonContracting := [1]
  lhsBatch := [0]
  rhsBatch := [0]
  wf := dot_S3x16x131072_S3x16x131072_S3x16x16_2_2_1_1_0_0_wf

abbrev win0_0 : Pipeline.Window sig grid0 :=
  Pipeline.Window.ofSpec (Memref.whole main_v0) S131072x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x16x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S64x512x512x3 : Shape := ⟨4, ![64, 512, 512, 3]⟩
abbrev S_ : Shape := ⟨0, ![]⟩
abbrev S3 : Shape := ⟨1, ![3]⟩
abbrev S1x1x1x3 : Shape := ⟨4, ![1, 1, 1, 3]⟩
abbrev S50331648 : Shape := ⟨1, ![50331648]⟩
abbrev S768 : Shape := ⟨1, ![768]⟩
abbrev S50331648x1 : Shape := ⟨2, ![50331648, 1]⟩
abbrev S3x256 : Shape := ⟨2, ![3, 256]⟩
abbrev S3x1 : Shape := ⟨2, ![3, 1]⟩
abbrev S256x3 : Shape := ⟨2, ![256, 3]⟩

abbrev nBuf : Space → Nat
  | .hbm => 34
  | .vmem => 0
  | .smem => 0
  | _ => 0

abbrev bufTy : (tb : Table) → Fin (tcTables nBuf tb) → BufTy
  | .hbm, ⟨0, _⟩ => ⟨S64x512x512x3, .f32⟩
  | .hbm, ⟨1, _⟩ => ⟨S_, .f32⟩
  | .hbm, ⟨2, _⟩ => ⟨S64x512x512x3, .f32⟩
  | .hbm, ⟨3, _⟩ => ⟨S64x512x512x3, .f32⟩
  | .hbm, ⟨4, _⟩ => ⟨S64x512x512x3, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S64x512x512x3, .i32⟩
  | .hbm, ⟨9, _⟩ => ⟨S64x512x512x3, .i32⟩
  | .hbm, ⟨10, _⟩ => ⟨S_, .i32⟩
  | .hbm, ⟨11, _⟩ => ⟨S64x512x512x3, .i32⟩
  | .hbm, ⟨12, _⟩ => ⟨S64x512x512x3, .i32⟩
  | .hbm, ⟨13, _⟩ => ⟨S3, .i32⟩
  | .hbm, ⟨14, _⟩ => ⟨S_, .i32⟩
  | .hbm, ⟨15, _⟩ => ⟨S3, .i32⟩
  | .hbm, ⟨16, _⟩ => ⟨S3, .i32⟩
  | .hbm, ⟨17, _⟩ => ⟨S1x1x1x3, .i32⟩
  | .hbm, ⟨18, _⟩ => ⟨S64x512x512x3, .i32⟩
  | .hbm, ⟨19, _⟩ => ⟨S64x512x512x3, .i32⟩
  | .hbm, ⟨20, _⟩ => ⟨S50331648, .i32⟩
  | .hbm, ⟨21, _⟩ => ⟨S_, .f32⟩
  | .hbm, ⟨22, _⟩ => ⟨S50331648, .f32⟩
  | .hbm, ⟨23, _⟩ => ⟨S_, .f32⟩
  | .hbm, ⟨24, _⟩ => ⟨S768, .f32⟩
  | .hbm, ⟨25, _⟩ => ⟨S50331648x1, .i32⟩
  | .hbm, ⟨26, _⟩ => ⟨S768, .f32⟩
  | .hbm, ⟨27, _⟩ => ⟨S3x256, .f32⟩
  | .hbm, ⟨28, _⟩ => ⟨S_, .f32⟩
  | .hbm, ⟨29, _⟩ => ⟨S3, .f32⟩
  | .hbm, ⟨30, _⟩ => ⟨S3x1, .f32⟩
  | .hbm, ⟨31, _⟩ => ⟨S3x256, .f32⟩
  | .hbm, ⟨32, _⟩ => ⟨S3x256, .f32⟩
  | .hbm, ⟨33, _⟩ => ⟨S256x3, .f32⟩
  | _, _ => ⟨S64x512x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]

class Facts₀ : Prop where
  bcast_S_S64x512x512x3 : S_.BroadcastsInDim S64x512x512x3 (![] : Fin 0 → Fin S64x512x512x3.rank)
  bcast_S_S3 : S_.BroadcastsInDim S3 (![] : Fin 0 → Fin S3.rank)
  bcast_S3_S1x1x1x3_3 : S3.BroadcastsInDim S1x1x1x3 (![3] : Fin 1 → Fin S1x1x1x3.rank)
  bcast_S1x1x1x3_S64x512x512x3_0_1_2_3 : S1x1x1x3.BroadcastsInDim S64x512x512x3 (![0, 1, 2, 3] : Fin 4 → Fin S64x512x512x3.rank)
  shapeCasts_S64x512x512x3_S50331648 : S64x512x512x3.ShapeCasts S50331648
  bcast_S_S50331648 : S_.BroadcastsInDim S50331648 (![] : Fin 0 → Fin S50331648.rank)
  bcast_S_S768 : S_.BroadcastsInDim S768 (![] : Fin 0 → Fin S768.rank)
  bcast_S50331648_S50331648x1_0 : S50331648.BroadcastsInDim S50331648x1 (![0] : Fin 1 → Fin S50331648x1.rank)
  shapeCasts_S768_S3x256 : S768.ShapeCasts S3x256
  reducesTo_S3x256_S3_d1 : S3x256.ReducesTo [1] S3
  h_S_ : 0 < S_.numel
  bcast_S3_S3x1_0 : S3.BroadcastsInDim S3x1 (![0] : Fin 1 → Fin S3x1.rank)
  bcast_S3x1_S3x256_0_1 : S3x1.BroadcastsInDim S3x256 (![0, 1] : Fin 2 → Fin S3x256.rank)
  transposes_S3x256_S256x3_1_0 : S3x256.Transposes [1, 0] S256x3
  scatter_S768_S50331648x1_S50331648_n_0_0_1_wf : ScatterDims.WF S768 S50331648x1 S50331648 [] [0] [0] 1

variable [Facts₀]

def scatter_S768_S50331648x1_S50331648_n_0_0_1 : ScatterDims S768 S50331648x1 S50331648 where
  updateWindowDims := []
  insertedWindowDims := [0]
  scatterDimsToOperandDims := [0]
  indexVectorDim := 1
  wf := scatter_S768_S50331648x1_S50331648_n_0_0_1_wf

class Facts : Prop extends Facts₀ where

variable [Facts]
-- ==== Proof.KernelAcc.lean ====
/-
  What the kernel's run leaves, read off the frame run, at any float model.

  The grid is 2 cores × 64 steps; point t = 64·p + s works on rows [131072·t, 131072·(t+1)) of the [pixels, 3] view.
  A 3×16×16 scratch is cleared at the first step of each core's run, every step adds the block's joint digit counts
  to it (`step`), and the last step copies it into slab p of the [2,3,16,16] output.  So the scratch after point t is
  the fold of `step` over the run that t lies in (`scr_fold`), the output array ends with slab p at the scratch after
  point 64·p + 63 (`final_out`), and the program's result is the host's closing lines (`countsOf`, `normalize`)
  applied to that array (`run_result`).
-/
import proofs.«109103_j23888608100752_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.HistKernel

open Cert.KernelIdeal Cert.KernelIdeal.Gen

variable {F : FTy → Type} [FloatOps F]
variable (m : (ℓ : Loc nD τ sig) → Buf (Elt F) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz4 : (![0, 0, 0, 0] : Fin 4 → Nat) = fun _ => 0 := funext fun a => by fin_cases a <;> rfl

/-- One grid point's work on the running counts: the block's joint digit counts added to what the scratch held. -/
def step (x0 : Vec F S131072x3 .f32) (a : Vec F S3x16x16 .f32) : Vec F S3x16x16 .f32 :=
  k0_pay1 (k0_pay6 x0) (k0_pay7 x0) a

/-- A middle point of a core's run leaves in the scratch one step over what it found there. -/
theorem sout_B (c : Dev nD) (i : grid0.Coords) (a2 : Memref sig .tc .vmem S131072x3 .f32) (h2 : a2.IsWhole)
    (a3 : Memref sig .tc .vmem S1x3x16x16 .f32) (h3 : a3.IsWhole) (a4 : Memref sig .tc .vmem S3x16x16 .f32) (h4 : a4.IsWhole)
    (hc0 : ¬cond0_0 i) (hc1 : ¬cond0_1 i) (x0 : Vec F S131072x3 .f32) (xs0 : Vec F S3x16x16 .f32) :
    sout0_B_0 c i a2 h2 a3 h3 a4 h4 hc0 hc1 x0 xs0 = step x0 xs0 := by
  unfold sout0_B_0
  rw [View.read_writes_eq_canon _ _ _ (scover0_B_0 c i a2 h2 a3 h3 a4 h4 hc0 hc1 x0 xs0)]
  unfold kernelRun0_B
  dsimp only
  sl_unfold_words
  rw [View.canon_unit_zero hz3]
  simp only [View.readAt_eq_ld, h2.read_unread, h4.read_unread, View.ld_unit_zero (S := S3x16x16) hz3, View.ld_unit_zero (S := S131072x3) hz2]
  rfl

/-- So does the last point of a run, -/
theorem sout_C (c : Dev nD) (i : grid0.Coords) (a2 : Memref sig .tc .vmem S131072x3 .f32) (h2 : a2.IsWhole)
    (a3 : Memref sig .tc .vmem S1x3x16x16 .f32) (h3 : a3.IsWhole) (a4 : Memref sig .tc .vmem S3x16x16 .f32) (h4 : a4.IsWhole)
    (hc0 : ¬cond0_0 i) (hc1 : cond0_1 i) (x0 : Vec F S131072x3 .f32) (xs0 : Vec F S3x16x16 .f32) :
    sout0_C_0 c i a2 h2 a3 h3 a4 h4 hc0 hc1 x0 xs0 = step x0 xs0 := by
  unfold sout0_C_0
  rw [View.read_writes_eq_canon _ _ _ (scover0_C_0 c i a2 h2 a3 h3 a4 h4 hc0 hc1 x0 xs0)]
  unfold kernelRun0_C
  dsimp only
  sl_unfold_words
  rw [View.canon_unit_zero hz3]
  simp only [View.readAt_eq_ld, h2.read_unread, h4.read_unread, View.ld_unit_zero (S := S3x16x16) hz3, View.ld_unit_zero (S := S131072x3) hz2]
  rfl

/-- which also copies the scratch, with a unit axis in front, into the output block. -/
theorem out_C (c : Dev nD) (i : grid0.Coords) (a2 : Memref sig .tc .vmem S131072x3 .f32) (h2 : a2.IsWhole)
    (a3 : Memref sig .tc .vmem S1x3x16x16 .f32) (h3 : a3.IsWhole) (a4 : Memref sig .tc .vmem S3x16x16 .f32) (h4 : a4.IsWhole)
    (hc0 : ¬cond0_0 i) (hc1 : cond0_1 i) (x0 : Vec F S131072x3 .f32) (xs0 : Vec F S3x16x16 .f32) :
    out0_C_1 c i a2 h2 a3 h3 a4 h4 hc0 hc1 x0 xs0 = k0_pay2 (step x0 xs0) := by
  unfold out0_C_1
  rw [View.read_writes_eq_canon _ _ _ (cover0_C_1 c i a2 h2 a3 h3 a4 h4 hc0 hc1 x0 xs0)]
  unfold kernelRun0_C
  dsimp only
  sl_unfold_words
  rw [View.canon_unit_zero hz4, View.readCov_unit_zero (S := S3x16x16) _ hz3]
  simp only [View.readAt_eq_ld, h2.read_unread, h4.read_unread, View.ld_unit_zero (S := S3x16x16) hz3, View.ld_unit_zero (S := S131072x3) hz2]
  rfl

/-- The first point of a run clears the scratch and then takes one step over the cleared scratch. -/
theorem sout_A (c : Dev nD) (i : grid0.Coords) (a2 : Memref sig .tc .vmem S131072x3 .f32) (h2 : a2.IsWhole)
    (a3 : Memref sig .tc .vmem S1x3x16x16 .f32) (h3 : a3.IsWhole) (a4 : Memref sig .tc .vmem S3x16x16 .f32) (h4 : a4.IsWhole)
    (hc0 : cond0_0 i) (hc1 : ¬cond0_1 i) (x0 : Vec F S131072x3 .f32) :
    sout0_A_0 c i a2 h2 a3 h3 a4 h4 hc0 hc1 x0 = step x0 (k0_pay3 (F := F)) := by
  unfold sout0_A_0
  rw [View.read_writes_eq_canon _ _ _ (scover0_A_0 c i a2 h2 a3 h3 a4 h4 hc0 hc1 x0)]
  unfold kernelRun0_A
  dsimp only
  sl_unfold_words
  rw [View.canon_cons_unit_zero (S := S3x16x16) hz3, View.readCov_unit_zero (S := S3x16x16) _ hz3]
  simp only [View.readAt_eq_ld, h2.read_unread, h4.read_unread, View.ld_unit_zero (S := S3x16x16) hz3, View.ld_unit_zero (S := S131072x3) hz2]
  rfl

/-- What the scratch holds after point `n`. -/
def scr (c : Dev nD) (n : ℕ) (h : n < cfg0.N) : Vec F S3x16x16 .f32 := (outsAt0 m c n h).2

theorem scr_reset (c : Dev nD) (n : ℕ) (h : n < cfg0.N) (h0 : n % 64 = 0) :
    scr m c n h = step (iblk m c 0 ⟨n, h⟩) (k0_pay3 (F := F)) := by
  unfold scr
  have h1 : ¬(⟨n, h⟩ : Fin cfg0.N).val % 64 = 63 := by dsimp only; omega
  rw [outsAt0_A m c ⟨n, h⟩ h0 h1]
  dsimp only
  exact sout_A c _ _ _ _ _ _ _ _ _ _

theorem scr_step (c : Dev nD) (n : ℕ) (h : n + 1 < cfg0.N) (h0 : ¬(n + 1) % 64 = 0) :
    scr m c (n + 1) h = step (iblk m c 0 ⟨n + 1, h⟩) (scr m c n (Nat.lt_of_succ_lt h)) := by
  unfold scr
  by_cases h1 : (n + 1) % 64 = 63
  · rw [outsAt0_C m c ⟨n + 1, h⟩ h0 h1]
    dsimp only
    exact sout_C c _ _ _ _ _ _ _ _ _ _ _
  · rw [outsAt0_B m c ⟨n + 1, h⟩ h0 h1]
    dsimp only
    exact sout_B c _ _ _ _ _ _ _ _ _ _ _

theorem out_flush (c : Dev nD) (t : Fin cfg0.N) (h1 : t.val % 64 = 63) :
    (outsAt0 m c t.val t.isLt).1 = k0_pay2 (scr m c t.val t.isLt) := by
  unfold scr
  have h0 : ¬t.val % 64 = 0 := by omega
  rw [outsAt0_C m c t h0 h1]
  dsimp only
  rw [out_C, sout_C]

theorem scr_congr (c : Dev nD) (n n' : ℕ) (h : n < cfg0.N) (h' : n' < cfg0.N) (i i' : S3x16x16.Idx) (e : n = n') (ei : i = i') :
    scr m c n h i = scr m c n' h' i' := by subst e; subst ei; rfl

/-- The scratch after point `t` is the fold over the run of points that `t` lies in: cleared and stepped at the run's
    first point, stepped at each later one. -/
theorem scr_fold (c : Dev nD) (t : ℕ) (ht : t < cfg0.N) (h' : 64 * (t / 64) + t % 64 < cfg0.N) :
    scr m c t ht = Pipeline.accAt (fun n h => step (iblk m c 0 ⟨n, h⟩) (k0_pay3 (F := F)))
      (fun n h acc => step (iblk m c 0 ⟨n, h⟩) acc) (64 * (t / 64)) (t % 64) h' :=
  Pipeline.eq_accAt_of_mod (scr m c) 64 _ _ (scr_reset m c) (scr_step m c) (by decide) t ht h'

theorem pt_lt (p : Fin 2) : 64 * p.val + 63 < cfg0.N := by
  rw [show cfg0.N = 128 from N_0]; have := p.isLt; omega

/-- The output array after the run: slab `p` holds what the scratch held after the last point of core `p`'s run. -/
def outArr (c : Dev nD) : S2x3x16x16.Idx → Elt F .f32 := fun i =>
  scr m c (64 * (i 0).val + 63) (pt_lt (i 0)) (ValueIdx.ix3 (i 1) (i 2) (i 3))

/-- The output window's block index at a point: the core on the leading axis, zero on the others. -/
theorem out_index : ∀ t : Fin cfg0.N, win0_1.index t (0 : Fin 4) = t.val / 64 ∧ win0_1.index t (1 : Fin 4) = 0
    ∧ win0_1.index t (2 : Fin 4) = 0 ∧ win0_1.index t (3 : Fin 4) = 0 :=
  (by decide +kernel : ∀ t : Fin grid0.N, _)

/-- What a flushing point writes back is its slab of `outArr`. -/
theorem flushed_eq (c : Dev nD) (t : Fin cfg0.N) (hf : (cfg0.win 1).flush t = true) :
    (dats m 0 c).flushed 1 t = ((cfg0.win 1).blk t).view.read (Elt F) (outArr m c) := by
  have h1 : t.val % 64 = 63 := (flush0_1 t).mp hf
  show (cfg0.win 1).cut (grid0.coords t) ((dats m 0 c).after 1 t) = _
  rw [after0_1, out_flush m c t h1]
  obtain ⟨e0, e1, e2, e3⟩ := out_index t
  funext y
  rw [View.read_apply]
  show k0_pay2 (scr m c t.val t.isLt) y = outArr m c (((cfg0.win 1).blk t).view.emb y)
  unfold k0_pay2 outArr
  rw [shapeCast_addUnit_apply]
  have y0 : (y 0).val < 1 := (y 0).isLt
  refine scr_congr m c _ _ _ _ _ _ ?_ ?_
  · show t.val = 64 * (win0_1.index t (0 : Fin 4) * 1 + 1 * (y 0).val) + 63
    omega
  · funext a; apply Fin.ext
    match a with
    | ⟨0, _⟩ => show (y 1).val = win0_1.index t (1 : Fin 4) * 3 + 1 * (y 1).val; omega
    | ⟨1, _⟩ => show (y 2).val = win0_1.index t (2 : Fin 4) * 16 + 1 * (y 2).val; omega
    | ⟨2, _⟩ => show (y 3).val = win0_1.index t (3 : Fin 4) * 16 + 1 * (y 3).val; omega

/-- The two flushing points' slabs cover the output array. -/
theorem out_cover (i : S2x3x16x16.Idx) :
    ∃ t : Fin cfg0.N, (cfg0.win 1).flush t = true ∧ i ∈ ((cfg0.win 1).blk t).view.set := by
  have i0 : (i 0).val < 2 := (i 0).isLt
  have i1 : (i 1).val < 3 := (i 1).isLt
  have i2 : (i 2).val < 16 := (i 2).isLt
  have i3 : (i 3).val < 16 := (i 3).isLt
  obtain ⟨t, ht⟩ : ∃ t : Fin cfg0.N, t.val = 64 * (i 0).val + 63 := ⟨⟨_, pt_lt (i 0)⟩, rfl⟩
  refine ⟨t, (flush0_1 t).mpr (by omega), ?_⟩
  obtain ⟨e0, e1, e2, e3⟩ := out_index t
  show i ∈ ((View.whole main_v1).slice (win0_1.rect t)).set
  rw [View.set_slice_whole, Rect.mem_set_unit]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 3 ≤ (i 1).val ∧ (i 1).val < win0_1.index t (1 : Fin 4) * 3 + 3; omega
  | ⟨2, _⟩ => show win0_1.index t (2 : Fin 4) * 16 ≤ (i 2).val ∧ (i 2).val < win0_1.index t (2 : Fin 4) * 16 + 16; omega
  | ⟨3, _⟩ => show win0_1.index t (3 : Fin 4) * 16 ≤ (i 3).val ∧ (i 3).val < win0_1.index t (3 : Fin 4) * 16 + 16; omega

/-- So the output array ends at `outArr`. -/
theorem final_out (c : Dev nD) : (dats m 0 c).arrAt 1 cfg0.N = outArr m c :=
  (dats m 0 c).arrAt_eq_of_cover 1 (outArr m c) (flushed_eq m c) (out_cover)

/-- The host's lines after the call, up to the per-channel counts: the two cores' slabs added, the two digits merged
    into one bin axis. -/
def countsOf (A : S2x3x16x16.Idx → Elt F .f32) : S3x256.Idx → Elt F .f32 :=
  shapeCast S3x256 (Host.reduceAdd A (constant S_ .f32 0x00000000#32) reducesTo_S2x3x16x16_S3x16x16_d0 h_S_) shapeCasts_S3x16x16_S3x256

/-- The rest of the host's lines: each channel's counts divided by their total, channels last. -/
def normalize (v : S3x256.Idx → Elt F .f32) : S256x3.Idx → Elt F .f32 :=
  transpose S256x3 [1, 0] (Host.divf v (broadcastInDim S3x256 ![0, 1] bcast_S3x1_S3x256_0_1
    (broadcastInDim S3x1 ![0] bcast_S3_S3x1_0 (Host.reduceAdd v (constant S_ .f32 0x00000000#32) reducesTo_S3x256_S3_d1 h_S_))))
    transposes_S3x256_S256x3_1_0

/-- The run, read: the result is the normalised counts of the output array, the argument is unchanged. -/
theorem run_result : θ_run defs (onTc (τ := τ) (main (F := F))) ⟨m, fun _ => 0, ρ⟩ fun r => ∀ c : Dev nD,
      r.2.mem ((c : Thread nD τ).loc main_v8) = normalize (countsOf (outArr m c))
      ∧ r.2.mem ((c : Thread nD τ).loc main_arg0) = m ((c : Thread nD τ).loc main_arg0) := by
  refine (θ_run defs _ _).mono (fun r h c => ⟨?_, ?_⟩) (run_main m ρ)
  · refine ((h c).2 main_v8 (Pipeline.mem_restRefs_of main_v8 (by decide) (by decide))).trans ?_
    unfold Pipeline.afterTail₀
    show StableHlo.after hostOps1 _ (Proc.devRef .tc main_v8) = _
    after_results
    have e : Pipeline.withArrays (cfgs 0).spec c (V0 m c) (fun w => (dats m 0 c).arrAt w (cfgs 0).N) (Proc.tc.devRef main_v1) = outArr m c :=
      (Pipeline.withArrays_arr spec0 launch0.win.arr_inj c _ _ 1).trans (final_out m c)
    rw [e]
    rfl
  · exact ((h c).2 main_arg0 (Pipeline.mem_restRefs_of main_arg0 (by decide) (by decide))).trans (W_main_arg0 m (dats m) c)

end Cert.HistKernel

end
-- ==== Proof.HistSpec.lean ====
/-
  The histogram both programs compute, stated once over plain functions.

  A sample x falls in the bin  clip(trunc(256 · x), 0, 255), a 32-bit word.  Channel c's count at bin b is the number
  of pixels n whose sample (n, c) falls in b, written as a sum of 0/1 votes over the extended reals.  The kernel
  splits a bin b = 16·h + l into its two base-16 digits, turns each digit into a one-hot row and multiplies the rows:
  the product of the two one-hot entries is the vote for b.  This file only names these things; the facts about them
  are in the modules that import it.
-/
import Idealize.ShloMosaic.PureOps.Ideal
import Idealize.ShloMosaic.Lib.ValueIdx

noncomputable section

namespace Cert.HistSpec

open Idealize.ShloMosaic

/-- The bin of a sample as a word: 256·x rounded toward zero (saturating), then clipped to [0, 255]. -/
def binW (x : EReal) : BitVec 32 :=
  IntOp.minsi 255#32 (IntOp.maxsi 0#32 (Ideal.fptosi 32 (x * Ideal.ofBits .f32 0x43800000#32)))

/-- One sample's vote for bin `b`: 1 when its bin word is `b`, else 0. -/
def vote (v : BitVec 32) (b : Nat) : EReal := if v = BitVec.ofNat 32 b then 1 else 0

/-- Channel `c`'s count at bin `b` over all 2^24 pixels of the [pixels, 3] view of the image. -/
def count (xs : (⟨2, ![16777216, 3]⟩ : Shape).Idx → EReal) (c : Fin 3) (b : Fin 256) : EReal :=
  ∑ n : Fin 16777216, vote (binW (xs (ValueIdx.ix2 n c))) b.val

/-- The same count over one block of 131072 pixels. -/
def blockCount (x0 : (⟨2, ![131072, 3]⟩ : Shape).Idx → EReal) (c : Fin 3) (b : Nat) : EReal :=
  ∑ n : Fin 131072, vote (binW (x0 (ValueIdx.ix2 n c))) b

/-- The high base-16 digit of a bin word, by the floor-division the kernel spells out: the truncating quotient by 16,
    less one when the signs of dividend and divisor differ and the remainder is not zero. -/
def hiW (v : BitVec 32) : BitVec 32 :=
  Scalar.select
    (IntOp.andi
      (IntOp.cmpi .ne
        (IntOp.subi ((IntOp.cmpi .sgt v 0#32).setWidth 32) ((IntOp.cmpi .slt v 0#32).setWidth 32))
        (Scalar.subi (Scalar.extui (Scalar.cmpi .sgt 16#32 0#32)) (Scalar.extui (Scalar.cmpi .slt 16#32 0#32))))
      (IntOp.cmpi .ne (IntOp.remsi .vector v 16#32) 0#32))
    (IntOp.subi (IntOp.divsi .vector v 16#32) 1#32)
    (IntOp.divsi .vector v 16#32)

/-- The low digit: the word less sixteen times its high digit. -/
def loW (v : BitVec 32) : BitVec 32 := IntOp.subi v (IntOp.muli (hiW v) 16#32)

/-- A one-hot entry as the kernel forms it: the digit `w` and the row number `k` both converted to reals and
    compared for equality, the one-bit answer widened and converted to a real again. -/
def oneHot (w : BitVec 32) (k : Nat) : EReal :=
  ((((Ideal.cmp .oeq ((w.toInt : ℝ) : EReal) (((BitVec.ofNat 32 k).toInt : ℝ) : EReal)).setWidth 32).toInt : ℝ) : EReal)

end Cert.HistSpec

end
-- ==== Proof.Digits.lean ====
/-
  Facts about one bin word: it lies in [0, 255]; on such a word the kernel's floor-division by 16 and the remainder it
  derives from it are the two base-16 digits; and the product of the two digits' one-hot entries at (h, l) is the
  word's vote for the bin 16·h + l.
-/
import proofs.«109103_j23888608100752_2_alg».proof.Proof.HistSpec

noncomputable section

namespace Cert.HistSpec

open Idealize.ShloMosaic

/-- Clipping a word to [0, 255] in the signed order leaves a word whose unsigned value is below 256. -/
theorem clip_toNat_lt (w : BitVec 32) : (IntOp.minsi 255#32 (IntOp.maxsi 0#32 w)).toNat < 256 := by
  have hw := BitVec.toInt_eq_toNat_cond w
  have hlt := w.isLt
  simp only [IntOp.minsi, IntOp.maxsi, BitVec.slt]
  split_ifs <;> simp_all <;> omega

/-- A bin word is one of 0 … 255. -/
theorem binW_lt (x : EReal) : (binW x).toNat < 256 :=
  clip_toNat_lt _

/-- On each of the 256 words 0 … 255 the floor-division by 16 gives the quotient and the derived remainder gives the
    remainder: the dividend is non-negative and the divisor positive, so the signs agree, no correction is applied and
    the truncating quotient is the floor quotient.  A finite check. -/
theorem digits_fin : ∀ n : Fin 256, (hiW (BitVec.ofNat 32 n.val)).toInt = ((n.val / 16 : Nat) : Int)
    ∧ (loW (BitVec.ofNat 32 n.val)).toInt = ((n.val % 16 : Nat) : Int) := by
  decide +kernel

/-- The high digit of a word below 256 is its quotient by 16. -/
theorem hiW_toInt (v : BitVec 32) (hv : v.toNat < 256) : (hiW v).toInt = ((v.toNat / 16 : Nat) : Int) := by
  have h := (digits_fin ⟨v.toNat, hv⟩).1
  simpa using h

/-- The low digit of a word below 256 is its remainder by 16. -/
theorem loW_toInt (v : BitVec 32) (hv : v.toNat < 256) : (loW v).toInt = ((v.toNat % 16 : Nat) : Int) := by
  have h := (digits_fin ⟨v.toNat, hv⟩).2
  simpa using h

/-- A row number below 16 read as a signed word is itself. -/
theorem toInt_ofNat_lt16 : ∀ k : Fin 16, (BitVec.ofNat 32 k.val).toInt = (k.val : Int) := by
  decide

/-- Two integers cast to reals and then to extended reals are equal only if the integers are, so the widened answer of
    the equality comparison, read as a real, is 1 when they are equal and 0 when they are not. -/
theorem cmp_oeq_cast (a b : Int) :
    ((((Ideal.cmp .oeq ((a : ℝ) : EReal) ((b : ℝ) : EReal)).setWidth 32).toInt : ℝ) : EReal)
      = if a = b then 1 else 0 := by
  by_cases h : a = b
  · subst h
    simp [Ideal.cmp]
  · have hne : ¬ (((a : ℝ) : EReal) = ((b : ℝ) : EReal)) := by
      rw [EReal.coe_eq_coe_iff, Int.cast_inj]; exact h
    simp only [Ideal.cmp, decide_eq_false hne, if_neg h]
    simp

/-- A one-hot entry is 1 exactly when the digit equals the row number, else 0. -/
theorem oneHot_eq (w : BitVec 32) (k : Fin 16) :
    oneHot w k.val = if w.toInt = (k.val : Int) then 1 else 0 := by
  unfold oneHot
  rw [toInt_ofNat_lt16 k]
  exact cmp_oeq_cast _ _

/-- The one-hot entries of the two digits multiply to the vote for the bin they spell. -/
theorem oneHot_mul (v : BitVec 32) (hv : v.toNat < 256) (h l : Fin 16) :
    oneHot (hiW v) h.val * oneHot (loW v) l.val = vote v (16 * h.val + l.val) := by
  rw [oneHot_eq _ h, oneHot_eq _ l, hiW_toInt v hv, loW_toInt v hv]
  unfold vote
  simp only [Nat.cast_inj]
  have hiff : v = BitVec.ofNat 32 (16 * h.val + l.val) ↔ (v.toNat / 16 = h.val ∧ v.toNat % 16 = l.val) := by
    rw [← BitVec.toNat_inj, BitVec.toNat_ofNat]
    have := h.isLt
    have := l.isLt
    omega
  by_cases hh : v.toNat / 16 = h.val
  · by_cases hl : v.toNat % 16 = l.val
    · rw [if_pos hh, if_pos hl, if_pos (hiff.mpr ⟨hh, hl⟩), one_mul]
    · have hne : ¬ v = BitVec.ofNat 32 (16 * h.val + l.val) := fun e => hl (hiff.mp e).2
      rw [if_pos hh, if_neg hl, if_neg hne, mul_zero]
  · have hne : ¬ v = BitVec.ofNat 32 (16 * h.val + l.val) := fun e => hh (hiff.mp e).1
    rw [if_neg hh, if_neg hne, zero_mul]

end Cert.HistSpec

end
-- ==== Proof.PayCount.lean ====
/-
  One grid step's update of the histogram accumulator, read at an element.

  The step turns each sample of its block of 131072 pixels into a bin word, splits the word into its two base-16
  digits, and forms for each channel two one-hot stacks of 16 rows: row h of the first holds, at pixel n, whether the
  pixel's high digit is h; row l of the second whether its low digit is l.  The product of the two stacks over the
  pixel axis, channel by channel, therefore counts at (c, h, l) the pixels of channel c whose bin is 16·h + l, and the
  step adds that count to the accumulator.  This module proves exactly that, one operation at a time: the bin word at
  an index, the digits at an index, a one-hot stack at an index, the batched product at an index as a sum over the
  pixels, and last the update itself.
-/
import proofs.«109103_j23888608100752_2_alg».proof.Proof.Gen.KernelIdeal.Skeleton
import proofs.«109103_j23888608100752_2_alg».proof.Proof.Digits
import Idealize.ShloMosaic.Lib.ValueIdx
import Idealize.ShloMosaic.Lib.Pipeline.Value
import Idealize.ShloMosaic.Lib.ValueLayout
import Idealize.ShloMosaic.PureOps.Ideal.Laws

noncomputable section

namespace Cert.HistPay

open Cert.KernelIdeal Cert.KernelIdeal.Gen Cert.HistSpec Idealize.ShloMosaic Idealize.ShloMosaic.ValueIdx

/-! ## The bin words and their digits at an index -/

/-- The clipped, truncated, scaled transpose of the block, read at (c, n), is the bin word of sample (n, c): the
    identity cast drops out, the transpose swaps the two coordinates, and the remaining operations are pointwise. -/
theorem pay4_apply (x0 : Vec Ideal S131072x3 .f32) (c : Fin 3) (n : Fin 131072) :
    k0_pay4 (F := Ideal) x0 (ix2 c n) = binW (x0 (ix2 n c)) := by
  unfold k0_pay4
  show IntOp.minsi 255#32 (IntOp.maxsi 0#32 (Ideal.fptosi 32
      (transpose S3x131072 [1, 0] (shapeCast S131072x3 x0 shapeCasts_S131072x3_S131072x3)
        transposes_S131072x3_p1_0_S3x131072 (ix2 c n) * Ideal.ofBits .f32 0x43800000#32))) = _
  rw [shapeCast_self,
    transpose_apply _ x0 transposes_S131072x3_p1_0_S3x131072 (ix2 c n) (ix2 n c)
      (fun b => match b with | ⟨0, _⟩ => rfl | ⟨1, _⟩ => rfl)]
  rfl

/-- The floor-division by 16 the step spells out is, at every index, the high digit of the bin word there:
    every operation of the chain is pointwise. -/
theorem pay5_apply (x0 : Vec Ideal S131072x3 .f32) (i : S3x131072.Idx) :
    k0_pay5 (F := Ideal) x0 i = hiW (k0_pay4 (F := Ideal) x0 i) := rfl

/-- The first operand of the product: the high digit, as a real. -/
theorem pay6_apply (x0 : Vec Ideal S131072x3 .f32) (i : S3x131072.Idx) :
    k0_pay6 (F := Ideal) x0 i = (((hiW (k0_pay4 (F := Ideal) x0 i)).toInt : ℝ) : EReal) := rfl

/-- The second operand: the low digit — the word less sixteen times its high digit —, as a real. -/
theorem pay7_apply (x0 : Vec Ideal S131072x3 .f32) (i : S3x131072.Idx) :
    k0_pay7 (F := Ideal) x0 i = (((loW (k0_pay4 (F := Ideal) x0 i)).toInt : ℝ) : EReal) := rfl

/-! ## The batched product at an index -/

/-- The product of two [3, 16, 131072] stacks, channel by channel (batch axis 0 of both) and contracted over the
    pixel axis (axis 2 of both), into a zero accumulator: at (c, h, l) it is the sum over the pixels n of the
    products of the left stack at (c, h, n) and the right stack at (c, l, n).  The contraction has one axis, of extent
    131072, so its index set is re-indexed by that axis's coordinate; the operand indices are then read off
    coordinate by coordinate (the batch and row coordinates come from the result index, the last from the pixel). -/
theorem matmul_apply3 (A B : FVec Ideal S3x16x131072 .bf16) (c : Fin 3) (h l : Fin 16) :
    matmul (F := Ideal) dot_S3x16x131072_S3x16x131072_S3x16x16_2_2_1_1_0_0 none A B
        (constant (F := Ideal) S3x16x16 .f32 0x00000000#32) (ix3 c h l)
      = ∑ n : Fin 131072, A (ix3 c h n) * B (ix3 c l n) := by
  refine (Ideal.matmul_constant_zero_apply dot_S3x16x131072_S3x16x131072_S3x16x16_2_2_1_1_0_0 none A B (ix3 c h l)).trans ?_
  rw [← Equiv.sum_comp (contrEquiv1 dot_S3x16x131072_S3x16x131072_S3x16x16_2_2_1_1_0_0 131072 rfl rfl).symm]
  refine Finset.sum_congr rfl fun n _ => ?_
  have c3 := contrEquiv1_symm_val dot_S3x16x131072_S3x16x131072_S3x16x16_2_2_1_1_0_0 131072 rfl rfl n
  have l3 : (dot_S3x16x131072_S3x16x131072_S3x16x16_2_2_1_1_0_0).lhsIdx (ix3 c h l)
      ((contrEquiv1 _ 131072 rfl rfl).symm n) = ix3 c h n := by
    funext ax; apply Fin.ext
    match ax with
    | ⟨0, _⟩ => rfl
    | ⟨1, _⟩ => rfl
    | ⟨2, _⟩ => exact (DotDims.lhsIdx_val_of_single _ rfl _ _).trans c3
  have r3 : (dot_S3x16x131072_S3x16x131072_S3x16x16_2_2_1_1_0_0).rhsIdx (ix3 c h l)
      ((contrEquiv1 _ 131072 rfl rfl).symm n) = ix3 c l n := by
    funext ax; apply Fin.ext
    match ax with
    | ⟨0, _⟩ => rfl
    | ⟨1, _⟩ => rfl
    | ⟨2, _⟩ => exact (DotDims.rhsIdx_val_of_single _ rfl _ _).trans c3
  rw [l3, r3]

/-! ## A one-hot stack at an index -/

/-- The one-hot stack of a [3, 131072] array of digits: the array, given a unit row axis and repeated over 16 rows, is
    compared for equality with the row number (the coordinate on axis 1 of a [1, 16, 1] array, as a real, repeated
    over channels and pixels), and the one-bit answer is widened and converted to a real.  At (c, k, n) the first
    operand reads the digit at (c, n) and the second the real k. -/
theorem oneHotRows_apply (v : FVec Ideal S3x131072 .bf16) (c : Fin 3) (k : Fin 16) (n : Fin 131072) :
    (truncf .bf16 (sitofp .f32 (extui 32 (cmpf .oeq
        (broadcastTo S3x16x131072 (shapeCast S3x1x131072 v shapeCasts_S3x131072_S3x1x131072) broadcasts_S3x1x131072_S3x16x131072)
        (broadcastTo S3x16x131072 (sitofp .bf16 (iota .tc S1x16x1 32 [1] iota_S1x16x1_d1_w32) : FVec Ideal S1x16x1 .bf16)
          broadcasts_S1x16x1_S3x16x131072)) natLt_1_32) : FVec Ideal S3x16x131072 .f32) bitsLt_bf16_f32
          : FVec Ideal S3x16x131072 .bf16) (ix3 c k n)
      = ((((Ideal.cmp .oeq (v (ix2 c n)) (((BitVec.ofNat 32 k.val).toInt : ℝ) : EReal)).setWidth 32).toInt : ℝ) : EReal) := by
  -- the digits: the repeat over rows reads row 0 of the [3, 1, 131072] view, whose position c·131072 + n is (c, n)'s
  have e1 : broadcastTo S3x16x131072 (shapeCast S3x1x131072 v shapeCasts_S3x131072_S3x1x131072)
      broadcasts_S3x1x131072_S3x16x131072 (ix3 c k n) = v (ix2 c n) := by
    refine (broadcastTo_apply _ broadcasts_S3x1x131072_S3x16x131072 (ix3 c k n) (ix3 c (0 : Fin 1) n)
      (fun a => match a with | ⟨0, _⟩ => rfl | ⟨1, _⟩ => rfl | ⟨2, _⟩ => rfl)).trans ?_
    exact shapeCast_apply v shapeCasts_S3x131072_S3x1x131072 (ix3 c (0 : Fin 1) n) (ix2 c n) (by
      rw [Shape.rowMajor_val_two, Shape.rowMajor_val_three]
      show c.val * 131072 + n.val = (c.val * 1 + 0) * 131072 + n.val
      omega)
  -- the row numbers: the repeat over channels and pixels reads (0, k, 0), where the coordinate on axis 1 is k
  have e2 : broadcastTo S3x16x131072 (sitofp .bf16 (iota .tc S1x16x1 32 [1] iota_S1x16x1_d1_w32) : FVec Ideal S1x16x1 .bf16)
      broadcasts_S1x16x1_S3x16x131072 (ix3 c k n) = (((BitVec.ofNat 32 k.val).toInt : ℝ) : EReal) := by
    refine (broadcastTo_apply _ broadcasts_S1x16x1_S3x16x131072 (ix3 c k n) (ix3 (0 : Fin 1) k (0 : Fin 1))
      (fun a => match a with | ⟨0, _⟩ => rfl | ⟨1, _⟩ => rfl | ⟨2, _⟩ => rfl)).trans ?_
    show (((iota .tc S1x16x1 32 [1] iota_S1x16x1_d1_w32 (ix3 (0 : Fin 1) k (0 : Fin 1))).toInt : ℝ) : EReal) = _
    rw [iota_single_apply]
  show ((((Ideal.cmp .oeq _ _).setWidth 32).toInt : ℝ) : EReal) = _
  rw [e1, e2]

/-- Over the high digits the entry at (c, k, n) is the one-hot entry of pixel n's high digit at row k. -/
theorem ohHi_apply (x0 : Vec Ideal S131072x3 .f32) (c : Fin 3) (k : Fin 16) (n : Fin 131072) :
    ((((Ideal.cmp .oeq (k0_pay6 (F := Ideal) x0 (ix2 c n)) (((BitVec.ofNat 32 k.val).toInt : ℝ) : EReal)).setWidth 32).toInt : ℝ) : EReal)
      = oneHot (hiW (binW (x0 (ix2 n c)))) k.val := by
  rw [pay6_apply, pay4_apply]; rfl

/-- Over the low digits it is the one-hot entry of pixel n's low digit at row k. -/
theorem ohLo_apply (x0 : Vec Ideal S131072x3 .f32) (c : Fin 3) (k : Fin 16) (n : Fin 131072) :
    ((((Ideal.cmp .oeq (k0_pay7 (F := Ideal) x0 (ix2 c n)) (((BitVec.ofNat 32 k.val).toInt : ℝ) : EReal)).setWidth 32).toInt : ℝ) : EReal)
      = oneHot (loW (binW (x0 (ix2 n c)))) k.val := by
  rw [pay7_apply, pay4_apply]; rfl

/-! ## The update -/

/-- The value the step stores back into the accumulator: at (c, h, l), the accumulator's old value plus the number of
    the block's pixels whose channel-c sample falls in bin 16·h + l.  The stored value is the old one plus the batched
    product of the two one-hot stacks; the product at (c, h, l) is the sum over the pixels of the product of the two
    one-hot entries, and each such product is the pixel's vote for the bin the two digits spell. -/
theorem pay1_apply (x0 : Vec Ideal S131072x3 .f32) (a : Vec Ideal S3x16x16 .f32) (c : Fin 3) (h l : Fin 16) :
    k0_pay1 (F := Ideal) (k0_pay6 x0) (k0_pay7 x0) a (ix3 c h l) = a (ix3 c h l) + blockCount x0 c (16 * h.val + l.val) := by
  unfold k0_pay1
  rw [shapeCast_self]
  refine (addf_apply _ _ _).trans ?_
  refine congrArg (a (ix3 c h l) + ·) ?_
  refine (matmul_apply3 _ _ c h l).trans ?_
  unfold blockCount
  refine Finset.sum_congr rfl fun n _ => ?_
  rw [oneHotRows_apply, oneHotRows_apply, ohHi_apply, ohLo_apply]
  exact oneHot_mul _ (binW_lt _) h l

end Cert.HistPay

end
-- ==== Proof.LibBlockSum.lean ====
/-
  A sum over n·b consecutive indices taken block by block.

  If a sequence starts at zero and its k-th step adds the sum of the k-th block of b consecutive terms,
  then after n steps it holds the sum of all n·b terms.  Stated over any commutative additive monoid
  (the extended reals with their addition are one), so no finiteness is needed.
-/
import Mathlib.Algebra.BigOperators.Fin
import Mathlib.Algebra.BigOperators.Group.Finset.Basic

namespace Cert.Lib

/-- The a-th term of block k lies among the first n·b terms. -/
theorem blk_lt {n b k a : ℕ} (hk : k < n) (ha : a < b) : b * k + a < n * b :=
  calc b * k + a < b * k + b := by omega
    _ = b * (k + 1) := (Nat.mul_succ b k).symm
    _ ≤ b * n := Nat.mul_le_mul_left b hk
    _ = n * b := Nat.mul_comm b n

/-- Block-by-block accumulation is the whole sum: `s 0 = 0` and `s (k+1) = s k + Σ_{a<b} f (b·k + a)` for `k < n`
    give `s n = Σ_{i<N} f i` when `N = n·b`. -/
theorem sum_by_blocks {M : Type*} [AddCommMonoid M] {n b N : ℕ} (hN : n * b = N) (f : Fin N → M) (s : ℕ → M)
    (h0 : s 0 = 0)
    (hs : ∀ k (hk : k < n), s (k + 1) = s k + ∑ a : Fin b, f ⟨b * k + a, hN ▸ blk_lt hk a.isLt⟩) :
    s n = ∑ i : Fin N, f i := by
  subst hN
  -- the terms as a function on the naturals, zero past the end
  let g : ℕ → M := fun i => if h : i < n * b then f ⟨i, h⟩ else 0
  have key : ∀ k, k ≤ n → s k = ∑ i ∈ Finset.range (b * k), g i := by
    intro k
    induction k with
    | zero => intro _; simpa using h0
    | succ k ih =>
      intro hk
      have hk' : k < n := hk
      rw [hs k hk', ih (Nat.le_of_lt hk'), Nat.mul_succ, Finset.sum_range_add, Finset.sum_range (fun a => g (b * k + a))]
      refine congrArg (_ + ·) (Finset.sum_congr rfl fun a _ => ?_)
      show f ⟨b * k + a, _⟩ = g (b * k + a)
      simp only [g]
      rw [dif_pos (blk_lt hk' a.isLt)]
  rw [key n le_rfl, Nat.mul_comm b n, Finset.sum_range]
  refine Finset.sum_congr rfl fun i _ => ?_
  simp only [g]
  rw [dif_pos i.isLt]

end Cert.Lib
-- ==== Proof.KernelCount.lean ====
/-
  The kernel's counts at the exact instance: entry (c, b) of the array the host's closing lines normalise is the
  number of pixels whose sample of channel c falls in bin b.

  One step adds to entry (c, h, l) of the scratch the block's count for bin 16·h + l; the scratch is cleared at the
  first step of a core's run, so after the run's 64 steps it holds the sum of the 64 blocks' counts; the host adds
  the two cores' slabs and merges the digit axes, so entry (c, b) is the sum of the counts of all 128 blocks for the
  bin b = 16·(b / 16) + b % 16.  Block t is rows [131072·t, 131072·(t+1)) of the [pixels, 3] view, and 128 blocks of
  131072 rows are all 2^24 rows: the sum taken block by block is the sum over all pixels.
-/
import proofs.«109103_j23888608100752_2_alg».proof.Proof.KernelAcc
import proofs.«109103_j23888608100752_2_alg».proof.Proof.PayCount
import proofs.«109103_j23888608100752_2_alg».proof.Proof.LibBlockSum
import Idealize.ShloMosaic.Lib.IdealHost
import Idealize.ShloMosaic.PureOps.Ideal.Laws

noncomputable section

open Idealize.ShloMosaic Idealize.ShloMosaic.TcCoe Idealize.SL.Sem
open Idealize.ShloMosaic.Pipeline (Dat)

namespace Cert.HistKernel

open Cert.KernelIdeal Cert.KernelIdeal.Gen Cert.HistSpec Idealize.ShloMosaic.ValueIdx

variable (m : (ℓ : Loc nD τ sig) → Buf (Elt Ideal) ℓ)

/-- One step at an entry of the scratch: what was there plus the block's count for the bin the entry's digits spell. -/
theorem step_apply (x0 : Vec Ideal S131072x3 .f32) (a : Vec Ideal S3x16x16 .f32) (i : S3x16x16.Idx) :
    step x0 a i = a i + blockCount x0 (i 0) (16 * (i 1).val + (i 2).val) := by
  obtain ⟨p, q, r, rfl⟩ : ∃ p q r, i = ix3 p q r := ⟨i 0, i 1, i 2, eq_ix3 i⟩
  exact Cert.HistPay.pay1_apply x0 a p q r

/-- The cleared scratch is zero everywhere. -/
theorem pay3_apply (i : S3x16x16.Idx) : k0_pay3 (F := Ideal) i = 0 := by
  unfold k0_pay3
  rw [shapeCast_self]
  exact Ideal.ofBits_zero_f32

/-- Point `n`'s addend at an entry of the scratch (zero past the grid, where it is never used). -/
def addend (c : Dev nD) (n : ℕ) (i : S3x16x16.Idx) : EReal :=
  if h : n < cfg0.N then blockCount (iblk m c 0 ⟨n, h⟩) (i 0) (16 * (i 1).val + (i 2).val) else 0

/-- After the last step of core `p`'s run the scratch holds the sum of the run's 64 addends. -/
theorem scr_last (c : Dev nD) (p : Fin 2) (i : S3x16x16.Idx) :
    scr m c (64 * p.val + 63) (pt_lt p) i = 0 + ∑ s ∈ Finset.range 64, addend m c (64 * p.val + s) i := by
  have hp : p.val < 2 := p.isLt
  have hd : (64 * p.val + 63) / 64 = p.val := by omega
  have hm : (64 * p.val + 63) % 64 = 63 := by omega
  have h' : 64 * ((64 * p.val + 63) / 64) + (64 * p.val + 63) % 64 < cfg0.N := by
    rw [hd, hm]; exact pt_lt p
  rw [scr_fold m c _ _ h']
  have key := Pipeline.accAt_add_apply (N := cfg0.N) (ι := S3x16x16.Idx) (β := EReal)
    (fun n h => step (iblk m c 0 ⟨n, h⟩) (k0_pay3 (F := Ideal)))
    (fun n h acc => step (iblk m c 0 ⟨n, h⟩) acc) (fun _ => 0) (addend m c)
    (64 * ((64 * p.val + 63) / 64)) 63
    (fun h i => by
      show step (F := Ideal) _ _ i = 0 + addend m c _ i
      rw [step_apply, pay3_apply]; unfold addend; rw [dif_pos h])
    (fun n h acc i _ _ => by
      show step (F := Ideal) _ acc i = acc i + addend m c n i
      rw [step_apply]; unfold addend; rw [dif_pos h])
    ((64 * p.val + 63) % 64) (by omega) h' i
  rw [key, hd, hm]

/-- So slab `p` of the output array holds, at (c, h, l), the sum of the 64 addends of core `p`'s run. -/
theorem outArr_apply (c : Dev nD) (p : Fin 2) (ch : Fin 3) (h l : Fin 16) :
    outArr m c (ix4 p ch h l) = 0 + ∑ s ∈ Finset.range 64, addend m c (64 * p.val + s) (ix3 ch h l) :=
  scr_last m c p (ix3 ch h l)

/-- The host's closing sum and merge at an entry: slab 0 plus slab 1 of the output array at the bin's two digits. -/
theorem countsOf_apply (A : S2x3x16x16.Idx → EReal) (ch : Fin 3) (b : Fin 256) :
    countsOf (F := Ideal) A (ix2 ch b)
      = 0 + ∑ p : Fin 2, A (ix4 p ch ⟨b.val / 16, by have := b.isLt; omega⟩ ⟨b.val % 16, by omega⟩) := by
  unfold countsOf
  rw [shapeCast_apply _ shapeCasts_S3x16x16_S3x256 (ix2 ch b)
    (ix3 ch ⟨b.val / 16, by have := b.isLt; omega⟩ ⟨b.val % 16, by omega⟩) (by
      rw [Shape.rowMajor_val_three, Shape.rowMajor_val_two]
      show (ch.val * 16 + b.val / 16) * 16 + b.val % 16 = ch.val * 256 + b.val
      omega)]
  simp only [Host.reduceAdd, Ideal.hostReduceAdd_def]
  rw [Ideal.hostReduceAdd_single reducesTo_S2x3x16x16_S3x16x16_d0 (by decide)]
  refine congrArg₂ (· + ·) Ideal.ofBits_zero_f32 (Finset.sum_congr rfl fun p _ => ?_)
  exact congrArg A (funext fun a => Fin.ext (by
    match a with
    | ⟨0, _⟩ => rfl
    | ⟨1, _⟩ => rfl
    | ⟨2, _⟩ => rfl
    | ⟨3, _⟩ => rfl))

/-- The input window's block index at a point: the point's number on the row axis, zero on the channel axis. -/
theorem in_index : ∀ t : Fin cfg0.N, win0_0.index t (0 : Fin 2) = t.val ∧ win0_0.index t (1 : Fin 2) = 0 :=
  (by decide +kernel : ∀ t : Fin grid0.N, _)

/-- Row `a` of point `t`'s block is row 131072·t + a of the [pixels, 3] view. -/
theorem iblk_apply (c : Dev nD) (t : Fin cfg0.N) (a : Fin 131072) (ch : Fin 3) (hlt : 131072 * t.val + a.val < 16777216) :
    iblk m c 0 t (ix2 a ch) = V m c main_v0 (ix2 ⟨131072 * t.val + a.val, hlt⟩ ch) := by
  unfold iblk
  rw [View.read_apply]
  show V m c main_v0 (((cfg0.win 0).blk t).view.emb (ix2 a ch)) = _
  obtain ⟨e0, e1⟩ := in_index t
  refine congrArg (V m c main_v0) (funext fun d => Fin.ext ?_)
  match d with
  | ⟨0, _⟩ => show win0_0.index t (0 : Fin 2) * 131072 + 1 * a.val = 131072 * t.val + a.val; omega
  | ⟨1, _⟩ => show win0_0.index t (1 : Fin 2) * 3 + 1 * ch.val = ch.val; omega

/-- THE KERNEL'S COUNTS: entry (c, b) of the array the host normalises is the count of channel c's samples in bin b,
    over all pixels of the [pixels, 3] view the call was given. -/
theorem kernel_counts (c : Dev nD) (ch : Fin 3) (b : Fin 256) :
    countsOf (F := Ideal) (outArr m c) (ix2 ch b) = Cert.HistSpec.count (V m c main_v0) ch b := by
  have hb : b.val < 256 := b.isLt
  have hN : cfg0.N = 128 := N_0
  rw [countsOf_apply, Fin.sum_univ_two, outArr_apply, outArr_apply]
  simp only [Fin.val_zero, Fin.val_one, Nat.mul_zero, Nat.mul_one, Nat.zero_add, zero_add]
  rw [← Finset.sum_range_add (fun t => addend m c t (ix3 ch ⟨b.val / 16, by omega⟩ ⟨b.val % 16, by omega⟩)) 64 64]
  unfold Cert.HistSpec.count
  refine Cert.Lib.sum_by_blocks (n := 128) (b := 131072) (N := 16777216) rfl
    (fun n => vote (binW (V m c main_v0 (ix2 n ch))) b.val)
    (fun k => ∑ t ∈ Finset.range k, addend m c t (ix3 ch ⟨b.val / 16, by omega⟩ ⟨b.val % 16, by omega⟩))
    (Finset.sum_range_zero _) (fun k hk => ?_)
  rw [Finset.sum_range_succ]
  refine congrArg (_ + ·) ?_
  unfold addend
  rw [dif_pos (by omega : k < cfg0.N)]
  unfold blockCount
  refine Finset.sum_congr rfl fun a _ => ?_
  rw [iblk_apply m c ⟨k, by omega⟩ a ch (Cert.Lib.blk_lt hk a.isLt)]
  show vote _ (16 * (b.val / 16) + b.val % 16) = vote _ b.val
  rw [Nat.div_add_mod]

end Cert.HistKernel

end
-- ==== Proof.RefCount.lean ====
/-
  The reference's histogram is the count of the specification.

  The reference turns every sample of the [64, 512, 512, 3] image into the word  bin + 256·channel  (bin the clipped,
  truncated 256·x; channel the last coordinate), lays the words out flat, channel fastest, and adds a one into a
  768-long array of zeros at each word.  Position 256·c + b of that array therefore holds the number of flat positions
  whose word is 256·c + b.  A flat position is a pair (pixel n, channel c'), its word is  bin(n, c') + 256·c'  with
  0 ≤ bin < 256, so the word is 256·c + b exactly when c' = c and bin(n, c) = b: the number is the count of pixels
  whose channel-c sample falls in bin b.

  The steps: which array position one addition lands at (the index word read signed, when it is inside the array);
  the word at a flat position; the addition of ones into zeros as a sum of 0/1 terms over flat positions; the flat
  positions as (pixel, channel) pairs; the count.
-/
import proofs.«109103_j23888608100752_2_alg».proof.Proof.Gen.ReferenceIdeal.Read
import proofs.«109103_j23888608100752_2_alg».proof.Proof.HistSpec
import proofs.«109103_j23888608100752_2_alg».proof.Proof.Digits
import Idealize.ShloMosaic.Lib.ValueIdx
import Idealize.ShloMosaic.Lib.Pipeline.Value
import Idealize.ShloMosaic.Lib.IdealHost

open scoped BigOperators

noncomputable section

namespace Cert.HistRef

open Cert.ReferenceIdeal Cert.ReferenceIdeal.Read Cert.HistSpec Idealize.ShloMosaic Idealize.ShloMosaic.ValueIdx

/-- The scatter's dimension numbers: one operand axis, inserted; one index component, for that axis. -/
abbrev dS : ScatterDims S768 S50331648x1 S50331648 := scatter_S768_S50331648x1_S50331648_n_0_0_1

/-- The window of flat position `j` starts, on the array's one axis, at the index word of `j` read signed. -/
theorem start_eq (j : S50331648.Idx) (idx : IVec S50331648x1 32) (a : Fin S768.rank) :
    dS.start j idx a = (idx (ix2 (j 0) 0)).toInt := by
  obtain rfl : a = 0 := Subsingleton.elim _ _
  unfold ScatterDims.start
  rw [dif_pos (show (0 : Fin 1) ∈ dS.scatterDimsToOperandDims from List.mem_singleton.mpr rfl)]
  have hsi : dS.siIdx j ⟨List.idxOf (0 : Fin 1) dS.scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The array's one axis is an inserted one: the window coordinate on it is zero. -/
theorem window_eq (j : S50331648.Idx) (a : Fin S768.rank) : dS.window j a = 0 := by
  obtain rfl : a = 0 := Subsingleton.elim _ _
  unfold ScatterDims.window
  rw [dif_neg (by decide)]

/-- The addition for flat position `j` lands at array position `i` exactly when the index word of `j`, read signed, is
    `i`; a word outside the array lands nowhere. -/
theorem resultIdx_iff (j : S50331648.Idx) (idx : IVec S50331648x1 32) (i : S768.Idx) :
    dS.resultIdx? j idx = some i ↔ (idx (ix2 (j 0) 0)).toInt = ((i 0).val : Int) := by
  unfold ScatterDims.resultIdx?
  simp only [start_eq, window_eq]
  have hi : (i 0).val < 768 := (i 0).isLt
  constructor
  · intro h
    split at h
    · rename_i hh
      have h1 := Option.some.inj h
      have h2 : ((idx (ix2 (j 0) 0)).toInt + ((0 : Nat) : Int)).toNat = (i 0).val :=
        congrArg (fun f => (f 0).val) h1
      have h3 := (hh 0).1
      omega
    · exact absurd h (by simp)
  · intro h
    have hh : ∀ a : Fin 1, 0 ≤ (idx (ix2 (j 0) 0)).toInt + ((0 : Nat) : Int) ∧
        (idx (ix2 (j 0) 0)).toInt + ((0 : Nat) : Int) < ((![768] a : Nat) : Int) := by
      intro a; obtain rfl : a = 0 := Subsingleton.elim _ _
      show 0 ≤ (idx (ix2 (j 0) 0)).toInt + ((0 : Nat) : Int) ∧
        (idx (ix2 (j 0) 0)).toInt + ((0 : Nat) : Int) < ((768 : Nat) : Int)
      omega
    rw [dif_pos hh]
    congr 1; funext a; obtain rfl : a = 0 := Subsingleton.elim _ _
    refine Fin.ext ?_
    show ((idx (ix2 (j 0) 0)).toInt + ((0 : Nat) : Int)).toNat = (i 0).val
    omega

/-- A word below 256 plus 256 times a channel number below 3, as a signed integer: no wrap. -/
theorem word_toInt (v : BitVec 32) (hv : v.toNat < 256) (c' : Fin 3) :
    (IntOp.addi v (IntOp.muli (BitVec.ofNat 32 c'.val) 256#32)).toInt = ((v.toNat + 256 * c'.val : Nat) : Int) := by
  have hc := c'.isLt
  have hn : (IntOp.addi v (IntOp.muli (BitVec.ofNat 32 c'.val) 256#32)).toNat = v.toNat + 256 * c'.val := by
    unfold IntOp.addi IntOp.muli
    rw [BitVec.toNat_add, BitVec.toNat_mul, BitVec.toNat_ofNat]
    show (v.toNat + c'.val % 2 ^ 32 * 256 % 2 ^ 32) % 2 ^ 32 = _
    omega
  rw [BitVec.toInt_eq_toNat_of_lt (by rw [hn]; omega), hn]

/-- The flat positions of the image are the (pixel, channel) pairs, channel fastest. -/
def flatEquiv : Fin 16777216 × Fin 3 ≃ S50331648.Idx where
  toFun p := ix1 ⟨p.1.val * 3 + p.2.val, by have := p.1.isLt; have := p.2.isLt; omega⟩
  invFun j := (⟨(j 0).val / 3, by have h0 : (j 0).val < 50331648 := (j 0).isLt; omega⟩,
    ⟨(j 0).val % 3, Nat.mod_lt _ (by decide)⟩)
  left_inv p := by
    rcases p with ⟨n, c⟩
    have := c.isLt
    refine Prod.ext (Fin.ext ?_) (Fin.ext ?_)
    · show (n.val * 3 + c.val) / 3 = n.val; omega
    · show (n.val * 3 + c.val) % 3 = c.val; omega
  right_inv j := by
    funext a
    match a with
    | ⟨0, _⟩ => exact Fin.ext (by show (j 0).val / 3 * 3 + (j 0).val % 3 = (j 0).val; omega)

/-- Counting the landings: among the words `w n c' + 256·c'` over all pixels `n` and channels `c'`, those equal to
    `256·c + b` are the pixels whose channel-`c` word is `b`. -/
theorem count_landing (w : Fin 16777216 → Fin 3 → BitVec 32) (hw : ∀ n c, (w n c).toNat < 256) (c : Fin 3) (b : Fin 256) :
    (∑ n : Fin 16777216, ∑ c' : Fin 3,
      (if (IntOp.addi (w n c') (IntOp.muli (BitVec.ofNat 32 c'.val) 256#32)).toInt = ((c.val * 256 + b.val : Nat) : Int)
        then (1 : EReal) else 0)) = ∑ n : Fin 16777216, vote (w n c) b.val := by
  refine Finset.sum_congr rfl fun n _ => ?_
  have hb := b.isLt
  have hc := c.isLt
  rw [Finset.sum_eq_single c]
  · unfold vote
    rw [word_toInt _ (hw n c)]
    refine if_congr ?_ rfl rfl
    rw [← BitVec.toNat_inj, BitVec.toNat_ofNat]
    have := hw n c
    constructor
    · intro h; have h' := Int.ofNat.inj h; omega
    · intro h; congr 1; omega
  · intro c' _ hne
    rw [word_toInt _ (hw n c'), if_neg]
    intro h
    have h' := Int.ofNat.inj h
    have := hw n c'
    have := c'.isLt
    exact hne (Fin.ext (by omega))
  · intro h; exact absurd (Finset.mem_univ c) h

/-- The index word at flat position `j`: the bin word of the sample there plus 256 times its channel `j mod 3`. -/
theorem word_at (x : (⟨S64x512x512x3, .f32⟩ : BufTy).Contents (Elt Ideal)) (j : S50331648.Idx) :
    val_main_v13 (F := Ideal) x (ix2 (j 0) 0)
      = IntOp.addi (binW (x (idx_main_v10 j))) (IntOp.muli (BitVec.ofNat 32 ((j 0).val % 3)) 256#32) := by
  have hj : idx_main_v13 (ix2 (j 0) 0) = j := by
    funext a
    match a with
    | ⟨0, _⟩ => rfl
  rw [val_main_v13_apply, hj, val_main_v10_apply, val_main_v9_apply, val_main_v8_apply, val_main_v7_apply,
    val_main_v6_apply, val_main_v5_apply, val_main_c_1_apply, val_main_v4_apply, val_main_v3_apply,
    val_main_call0_v4_apply, val_main_call0_v3_apply, val_main_c_0_apply, val_main_call0_v2_apply,
    val_main_call0_v1_apply, val_main_call0_v0_apply, val_main_c_apply, val_main_v2_apply, val_main_v1_apply,
    val_main_v0_apply, val_main_cst_apply]
  rfl

/-- The sample at flat position 3·n + c' is the [pixels, 3] view's sample (n, c'): both have that row-major position. -/
theorem sample_at (x : (⟨S64x512x512x3, .f32⟩ : BufTy).Contents (Elt Ideal))
    (hc : S64x512x512x3.ShapeCasts (⟨2, ![16777216, 3]⟩ : Shape)) (n : Fin 16777216) (c' : Fin 3) :
    x (idx_main_v10 (flatEquiv (n, c'))) = shapeCast (⟨2, ![16777216, 3]⟩ : Shape) x hc (ix2 n c') := by
  refine (shapeCast_apply x hc (ix2 n c') (idx_main_v10 (flatEquiv (n, c'))) ?_).symm
  rewrite [Shape.rowMajor_val_four, Shape.rowMajor_val_two]
  have hn := n.isLt
  have hc' := c'.isLt
  show (((n.val * 3 + c'.val) / 786432 * 512 + (n.val * 3 + c'.val) / 1536 % 512) * 512
      + (n.val * 3 + c'.val) / 3 % 512) * 3 + (n.val * 3 + c'.val) % 3 = n.val * 3 + c'.val
  omega

/-- The accumulating addition read at `i`: the operand there plus the updates that land there. -/
theorem scatter_apply (v : S768.Idx → EReal) (idx : IVec S50331648x1 32) (upd : S50331648.Idx → EReal) (i : S768.Idx) :
    Host.scatterAdd (F := Ideal) (φ := .f32) dS v idx upd i
      = v i + ∑ j ∈ Finset.univ.filter (fun j => dS.resultIdx? j idx = some i), upd j := rfl

/-- The scatter of ones into zeros, read at `i`: the number of flat positions whose index word, read signed, is `i`. -/
theorem scatter_ones (idx : IVec S50331648x1 32) (i : S768.Idx) :
    Host.scatterAdd (F := Ideal) (φ := .f32) dS (val_main_v12 (F := Ideal)) idx (val_main_v11 (F := Ideal)) i
      = ∑ j : S50331648.Idx, if (idx (ix2 (j 0) 0)).toInt = ((i 0).val : Int) then (1 : EReal) else 0 := by
  rw [scatter_apply, val_main_v12_apply, val_main_cst_3_apply, Finset.sum_filter]
  show Ideal.ofBits .f32 0x00000000#32 + _ = _
  rw [Ideal.ofBits_zero_f32, zero_add]
  refine Finset.sum_congr rfl fun j _ => ?_
  rw [val_main_v11_apply, val_main_cst_2_apply]
  show (if _ then Ideal.ofBits .f32 0x3F800000#32 else 0) = _
  rw [Ideal.ofBits_one_f32]
  exact if_congr (resultIdx_iff j idx i) rfl rfl

/-- The reference's [3, 256] array at (c, b) is channel `c`'s count at bin `b` over the [pixels, 3] view of the image. -/
theorem ref_counts (x : (⟨S64x512x512x3, .f32⟩ : BufTy).Contents (Elt Ideal))
    (hc : S64x512x512x3.ShapeCasts (⟨2, ![16777216, 3]⟩ : Shape)) (c : Fin 3) (b : Fin 256) :
    Cert.ReferenceIdeal.Read.val_main_v15 (F := Ideal) x (ix2 c b)
      = Cert.HistSpec.count (shapeCast (⟨2, ![16777216, 3]⟩ : Shape) x hc) c b := by
  rw [val_main_v15_apply]
  show Host.scatterAdd (F := Ideal) (φ := .f32) dS (val_main_v12 (F := Ideal)) (val_main_v13 (F := Ideal) x)
    (val_main_v11 (F := Ideal)) (idx_main_v15 (ix2 c b)) = _
  rw [scatter_ones, ← Equiv.sum_comp flatEquiv, Fintype.sum_prod_type]
  unfold Cert.HistSpec.count
  refine Eq.trans ?_ (count_landing (fun n c' => binW (shapeCast (⟨2, ![16777216, 3]⟩ : Shape) x hc (ix2 n c')))
    (fun n c' => binW_lt _) c b)
  refine Finset.sum_congr rfl fun n _ => Finset.sum_congr rfl fun c' _ => ?_
  have h3 : ((flatEquiv (n, c')) 0).val % 3 = c'.val := by
    have := c'.isLt
    show (n.val * 3 + c'.val) % 3 = c'.val
    omega
  rw [word_at, sample_at x hc, h3]

end Cert.HistRef

end
-- ==== Proof.Claims.lean ====
/-
  The claims, assembled.

  Both idealized programs end with the same closing lines — each channel's 256 counts divided by their total,
  channels last — applied to a [3, 256] array of counts.  The kernel's array is the two cores' 3×16×16 slabs added
  and flattened; the reference's is the scatter-add of ones, reshaped.  Entry (c, b) of either is the number of pixels
  whose sample of channel c falls in bin b (a sum of 0/1 votes over the extended reals), read over the same
  [pixels, 3] view of the same image, so the arrays are equal and so are the results.  No finiteness of the samples
  is used: a sample's bin is the same function of it on both sides.
-/
import proofs.«109103_j23888608100752_2_alg».proof.Defs
import proofs.«109103_j23888608100752_2_alg».proof.Proof.Gen.Kernel.Frame
import proofs.«109103_j23888608100752_2_alg».proof.Proof.Gen.ReferenceIdeal.Read
import proofs.«109103_j23888608100752_2_alg».proof.Proof.Gen.Pre_finite_inputs
import proofs.«109103_j23888608100752_2_alg».proof.Proof.KernelCount
import proofs.«109103_j23888608100752_2_alg».proof.Proof.RefCount

noncomputable section

open Idealize.ShloMosaic Idealize.ShloMosaic.TcCoe Idealize.SL.Sem

namespace Cert.Proof.HistClaims

open Idealize.ShloMosaic.ValueIdx

/-- The kernel's call is given the image reshaped to [pixels, 3]: the one host line before it. -/
theorem view_eq (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v0 : Cert.KernelIdeal.S16777216x3.Idx → EReal)
      = shapeCast Cert.KernelIdeal.S16777216x3 (m ((c.tc : Thread Cert.KernelIdeal.nD Cert.KernelIdeal.τ).loc Cert.KernelIdeal.main_arg0))
          Cert.KernelIdeal.Facts₀.shapeCasts_S64x512x512x3_S16777216x3 := by
  show StableHlo.after Cert.KernelIdeal.Gen.hostOps0 (fun b => m (c, b)) (Proc.devRef .tc Cert.KernelIdeal.main_v0) = _
  after_results
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The reference's result is the same closing lines applied to its own counts. -/
theorem ref_result (x : (⟨Cert.ReferenceIdeal.S64x512x512x3, .f32⟩ : BufTy).Contents (Elt Ideal)) :
    Cert.ReferenceIdeal.Read.val_main_v20 (F := Ideal) x
      = Cert.HistKernel.normalize (F := Ideal) (Cert.ReferenceIdeal.Read.val_main_v15 (F := Ideal) x) := rfl

theorem algebraic : Cert.algebraic_KernelIdeal_ReferenceIdeal := by
  intro m ρ m' ρ' _ hagree
  refine ⟨fun c => Cert.HistKernel.normalize (Cert.HistKernel.countsOf (Cert.HistKernel.outArr m c)),
    Cert.HistKernel.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, ref_result, hagree c]
  refine congrArg Cert.HistKernel.normalize (funext fun i => ?_)
  obtain ⟨ch, b, rfl⟩ : ∃ (ch : Fin 3) (b : Fin 256), i = ix2 ch b := ⟨i 0, i 1, eq_ix2 i⟩
  rw [Cert.HistKernel.kernel_counts m c ch b, view_eq m c]
  exact Cert.HistRef.ref_counts _ _ ch b

end Cert.Proof.HistClaims

end
-- ==== Proof.lean ====
/-
  A per-channel, 256-bin histogram of an image, normalised to sum one: a kernel that splits each bin into two base-16
  digits and counts by multiplying one-hot stacks, accumulating over 64 steps on each of two cores, against a
  reference that adds ones into a 768-long array at the positions bin + 256·channel.

  At the exact instance both count, for each channel c and bin b, the pixels whose sample of channel c has
  clip(trunc(256·x), 0, 255) = b, and both then divide each channel's counts by their total and put the channels
  last.  The modules: HistSpec (the count, stated once), Digits (a bin word's two digits and their one-hot product),
  PayCount (one step of the kernel at an entry), KernelAcc (what the run leaves, at any float model), KernelCount (the
  kernel's counts), RefCount (the reference's counts), Claims (the frames and the equality of the results).
-/
import proofs.«109103_j23888608100752_2_alg».proof.Defs
import proofs.«109103_j23888608100752_2_alg».proof.Proof.Gen.Kernel
import proofs.«109103_j23888608100752_2_alg».proof.Proof.Gen.KernelIdeal
import proofs.«109103_j23888608100752_2_alg».proof.Proof.Gen.ReferenceIdeal
import proofs.«109103_j23888608100752_2_alg».proof.Proof.Gen.Pre_finite_inputs
import proofs.«109103_j23888608100752_2_alg».proof.Proof.Gen.ReferenceIdeal.Run
import proofs.«109103_j23888608100752_2_alg».proof.Proof.Gen.ReferenceIdeal.Read
import proofs.«109103_j23888608100752_2_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    HistClaims.frame_k, HistClaims.frame_ki, HistClaims.frame_ri, HistClaims.preserves, HistClaims.algebraic⟩

end Cert.Proof

end
